-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x128 .f32) (main_arg9 : FVec F S1 .f32) (main_v33 : IVec S_ 1) : IVec S_ 1 :=
  let main_v34 : FVec F S1x128 .f32 := Host.absf main_arg8
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S1x128 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S1x128 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x1 : Shape := ⟨2, ![1, 1]⟩
abbrev S5000x1 : Shape := ⟨2, ![5000, 1]⟩
abbrev S128x1 : Shape := ⟨2, ![128, 1]⟩

abbrev nBuf : Space → Nat
  | .hbm => 74
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x128, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S1x1600000, .i32⟩
  | .hbm, ⟨42, _⟩ => ⟨S1600000, .i32⟩
  | .hbm, ⟨43, _⟩ => ⟨S1x1600000, .i32⟩
  | .hbm, ⟨44, _⟩ => ⟨S1600000, .i32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S100000, .f32⟩
  | .hbm, ⟨62, _⟩ => ⟨S1600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S1x1, .f32⟩
  | .hbm, ⟨73, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S1_S1x1 : S1.ShapeCasts S1x1
  transposes_S1x128_p1_0_S128x1 : S1x128.Transposes [1, 0] S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x1 : Shape := ⟨2, ![128, 1]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x128, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S128x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S1x1600000, .i32⟩
  | .hbm, ⟨51, _⟩ => ⟨S1600000, .i32⟩
  | .hbm, ⟨52, _⟩ => ⟨S1x1600000, .i32⟩
  | .hbm, ⟨53, _⟩ => ⟨S1600000, .i32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S_, .f32⟩
  | .hbm, ⟨68, _⟩ => ⟨S1600000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S128x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S128x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S128x1, .f32⟩
  | .hbm, ⟨91, _⟩ => ⟨S100000x1, .f32⟩
  | .hbm, ⟨92, _⟩ => ⟨S1x1, .f32⟩
  | .hbm, ⟨93, _⟩ => ⟨S100000x1, .f32⟩
  | .hbm, ⟨94, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_4 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_cst : Ref sig .tc := ⟨.hbm, 87, rfl⟩
abbrev main_call1_v0 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel's whole run, with its two RESULT arrays named.

  The program is six segments: host operations, the first dense layer's grid, host operations, the second
  layer's grid, one reshape, the head's grid. The contents of every buffer at each segment boundary are a fold
  from the launch memory (`W0 … W6`): a stretch of host operations applies them in order, a grid leaves each
  of its arrays at what its write-backs add up to and every other buffer as it found it. Every weakly fair
  execution terminates with every buffer that outlives the program at the last boundary's contents `W6`; read
  at the score array and at the embedding array this names the results, and read at the ten argument arrays it
  says they end as launched.
-/
import proofs.«122160_j52089363366199_1_alg».proof.Proof.KernelIdealFrameP

set_option maxRecDepth 16384

noncomputable section

namespace Cert.KernelIdeal.Results

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the score array and the embedding array end at the
    last boundary's contents, and the arguments end as launched. -/
theorem run_last_boundary : θ_run defs (onTc (τ := τ) (main (F := F))) ⟨m, fun _ => 0, ρ⟩ (fun r => ∀ c : Dev nD,
      r.2.mem ((c.tc : Thread nD τ).loc main_v51) = W6 m ρ c (Proc.devRef .tc main_v51)
      ∧ r.2.mem ((c.tc : Thread nD τ).loc main_v49) = W6 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v51 (by decide)),
       h c _ (mem_uc main_v49 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Results

end
-- ==== Proof.Payload.lean ====
/-
  The three kernel bodies' arithmetic, read at one element of the block they store.

  Each body multiplies its row block (5000 nodes × 128 features) by the TRANSPOSE of a weight matrix, into a zero
  accumulator. Read at row p and column q that product is the sum over k of (block[p,k] · weights[q,k]): the
  contraction runs along ROW q of the weights. Rounding the operands to a shorter float format is the identity on
  the extended reals, and so is a reshape to the same shape. A dense layer's body then adds the bias row's entry q
  and the second product, and takes the maximum with zero; the head's body adds its single bias entry.
-/
import proofs.«122160_j52089363366199_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## A row block against the transpose of a square weight matrix -/

theorem sq_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem sq_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem sq_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem sq_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row p of the block against ROW q of the weights: the product with the transposed matrix, into a zero
    accumulator, at (p, q). -/
theorem matmul_transposed_apply (x : FVec Ideal S5000x128 .bf16) (w : FVec Ideal S128x128 .bf16) (p : Fin 5000) (q : Fin 128) :
    matmul dot_S5000x128_S128x128_S5000x128_1_0_0_1_n_n none x (transpose S128x128 [1, 0] w transposes_S128x128_p1_0_S128x128)
        (constant (F := Ideal) S5000x128 .f32 0x00000000#32) (ix2 p q)
      = ∑ k : Fin 128, x (ix2 p k) * w (ix2 q k) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact sq_lhs0 _ _
    | ⟨1, _⟩ => exact (sq_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (sq_rhs0 _ _).trans hk
    | ⟨1, _⟩ => exact sq_rhs1 _ _)
  rw [el, er]
  exact congrArg (x (ix2 p k) * ·) (transpose_apply [1, 0] w transposes_S128x128_p1_0_S128x128 (ix2 k q) (ix2 q k) (fun b => match b with
    | ⟨0, _⟩ => rfl
    | ⟨1, _⟩ => rfl))

/-! ## A row block against the transpose of the head's single weight row -/

theorem hd_lhs0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem hd_lhs1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem hd_rhs0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem hd_rhs1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- Row p of the block against the head's weight row: the product with the transposed row, into a zero
    accumulator, at (p, 0). -/
theorem matmul_head_apply (x : FVec Ideal S5000x128 .bf16) (w : FVec Ideal S1x128 .bf16) (p : Fin 5000) :
    matmul dot_S5000x128_S128x1_S5000x1_1_0_0_1_n_n none x (transpose S128x1 [1, 0] w transposes_S1x128_p1_0_S128x1)
        (constant (F := Ideal) S5000x1 .f32 0x00000000#32) (ix2 p (0 : Fin 1))
      = ∑ k : Fin 128, x (ix2 p k) * w (ix2 (0 : Fin 1) k) := by
  simp only [matmul]
  rw [Ideal.matmul_constant_zero_apply, ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p (0 : Fin 1)) ((contrEquiv1 dot_S5000x128_S128x1_S5000x1_1_0_0_1_n_n 128 rfl rfl).symm k) = ix2 p k := funext fun a => Fin.ext (by
    match a with
    | ⟨0, _⟩ => exact hd_lhs0 _ _
    | ⟨1, _⟩ => exact (hd_lhs1 _ _).trans hk)
  have er : dot_S5000x128_S128x1_S5000x1_1_0_0_1_n_n.rhsIdx (ix2 p (0 : Fin 1)) ((contrEquiv1 dot_S5000x128_S128x1_S5000x1_1_0_0_1_n_n 128 rfl rfl).symm k) = ix2 k (0 : Fin 1) := funext fun a => Fin.ext (by
    match a with
    | ⟨0, _⟩ => exact (hd_rhs0 _ _).trans hk
    | ⟨1, _⟩ => exact hd_rhs1 _ _)
  rw [el, er]
  exact congrArg (x (ix2 p k) * ·) (transpose_apply [1, 0] w transposes_S1x128_p1_0_S128x1 (ix2 k (0 : Fin 1)) (ix2 (0 : Fin 1) k) (fun b => match b with
    | ⟨0, _⟩ => rfl
    | ⟨1, _⟩ => rfl))

/-! ## The bias row and the bias entry, broadcast over the block -/

/-- The bias row broadcast down the block's rows reads its entry q at (p, q). -/
theorem bias_row_apply (b : FVec Ideal S1x128 .f32) (p : Fin 5000) (q : Fin 128) :
    broadcastTo S5000x128 (shapeCast S1x128 b shapeCasts_S1x128_S1x128) broadcasts_S1x128_S5000x128 (ix2 p q) = b (ix2 (0 : Fin 1) q) := by
  rw [shapeCast_self]
  exact broadcastTo_apply b broadcasts_S1x128_S5000x128 (ix2 p q) (ix2 (0 : Fin 1) q) (fun a => match a with
    | ⟨0, _⟩ => rfl
    | ⟨1, _⟩ => rfl)

/-- The head's bias entry broadcast down the block's rows reads that entry at (p, 0). -/
theorem bias_entry_apply (b : FVec Ideal S1x1 .f32) (p : Fin 5000) :
    broadcastTo S5000x1 (shapeCast S1x1 b shapeCasts_S1x1_S1x1) broadcasts_S1x1_S5000x1 (ix2 p (0 : Fin 1)) = b (ix2 (0 : Fin 1) (0 : Fin 1)) := by
  rw [shapeCast_self]
  exact broadcastTo_apply b broadcasts_S1x1_S5000x1 (ix2 p (0 : Fin 1)) (ix2 (0 : Fin 1) (0 : Fin 1)) (fun a => match a with
    | ⟨0, _⟩ => rfl
    | ⟨1, _⟩ => rfl)

/-! ## The three bodies at an element -/

/-- The first layer's body at (p, q), of the aggregate's block `a`, the features' block `f`, the two weight
    matrices and the bias row. -/
theorem layer1_apply (a f : Vec Ideal S5000x128 .f32) (wl wr : Vec Ideal S128x128 .f32) (b : Vec Ideal S1x128 .f32) (p : Fin 5000) (q : Fin 128) :
    k0_pay1 (F := Ideal) a f wl wr b (ix2 p q)
      = max (((∑ k : Fin 128, a (ix2 p k) * wl (ix2 q k)) + b (ix2 (0 : Fin 1) q)) + ∑ k : Fin 128, f (ix2 p k) * wr (ix2 q k))
          (Ideal.ofBits .f32 0x00000000#32) := by
  unfold k0_pay1
  dsimp only
  rw [maximumf_apply, addf_apply, addf_apply, matmul_transposed_apply, matmul_transposed_apply, bias_row_apply, shapeCast_self]
  rfl

/-- The second layer's body at (p, q): the same arithmetic. -/
theorem layer2_apply (a f : Vec Ideal S5000x128 .f32) (wl wr : Vec Ideal S128x128 .f32) (b : Vec Ideal S1x128 .f32) (p : Fin 5000) (q : Fin 128) :
    k1_pay1 (F := Ideal) a f wl wr b (ix2 p q)
      = max (((∑ k : Fin 128, a (ix2 p k) * wl (ix2 q k)) + b (ix2 (0 : Fin 1) q)) + ∑ k : Fin 128, f (ix2 p k) * wr (ix2 q k))
          (Ideal.ofBits .f32 0x00000000#32) := by
  unfold k1_pay1
  dsimp only
  rw [maximumf_apply, addf_apply, addf_apply, matmul_transposed_apply, matmul_transposed_apply, bias_row_apply, shapeCast_self, shapeCast_self]
  rfl

/-- The head's body at (p, 0), of the embedding's block `h`, the head's weight row and its bias entry. -/
theorem head_apply (h : Vec Ideal S5000x128 .f32) (w : Vec Ideal S1x128 .f32) (b : Vec Ideal S1x1 .f32) (p : Fin 5000) :
    k2_pay1 (F := Ideal) h w b (ix2 p (0 : Fin 1))
      = (∑ k : Fin 128, h (ix2 p k) * w (ix2 (0 : Fin 1) k)) + b (ix2 (0 : Fin 1) (0 : Fin 1)) := by
  unfold k2_pay1
  dsimp only
  rw [addf_apply, matmul_head_apply, bias_entry_apply, shapeCast_self]
  rfl

end Cert.KernelIdeal.Payload

end
-- ==== Proof.Spec.lean ====
/-
  What both programs compute, as functions of whole arrays over the extended reals.

  A node's new feature vector in one layer is
      max( (Σ_k a[r,k] · Wl[j,k]) + b[j] + (Σ_k f[r,k] · Wr[j,k]) , 0 )
  for node r and output feature j, where f is the layer's input features, a the mean of f over the node's
  incoming edges, Wl and Wr two 128×128 weight matrices read by ROW j (the product is with their transposes)
  and b a bias. The final score of node r is (Σ_k h[r,k] · w[0,k]) + b0 for the second layer's output h.
  The grouping of the three summands is the one both programs use, so no law of the extended reals beyond
  the reindexing of a finite sum is needed to compare them.
-/
import Idealize.ShloMosaic.PureOps.Ideal
import Idealize.ShloMosaic.Lib.ValueIdx

noncomputable section

namespace Cert.Sage

open Idealize.ShloMosaic Idealize.ShloMosaic.ValueIdx

/-- One row of 128 features per node, 100000 nodes. -/
abbrev Feat : Shape := ⟨2, ![100000, 128]⟩
/-- A 128×128 weight matrix. -/
abbrev Wt : Shape := ⟨2, ![128, 128]⟩
/-- The head's single row of 128 weights. -/
abbrev HeadW : Shape := ⟨2, ![1, 128]⟩
/-- One score per node. -/
abbrev ScoreS : Shape := ⟨2, ![100000, 1]⟩

/-- Entry (r, j) of one layer: the aggregate's row r against row j of `Wl`, plus the bias, plus the features'
    row r against row j of `Wr`, clamped below at zero. -/
def denseAt (a f : FVec Ideal Feat .f32) (Wl : FVec Ideal Wt .f32) (b : Fin 128 → EReal) (Wr : FVec Ideal Wt .f32)
    (r : Fin 100000) (j : Fin 128) : EReal :=
  max (((∑ k : Fin 128, a (ix2 r k) * Wl (ix2 j k)) + b j) + ∑ k : Fin 128, f (ix2 r k) * Wr (ix2 j k))
    (Ideal.ofBits .f32 0x00000000#32)

/-- One layer as a whole array. -/
def dense (a f : FVec Ideal Feat .f32) (Wl : FVec Ideal Wt .f32) (b : Fin 128 → EReal) (Wr : FVec Ideal Wt .f32) :
    FVec Ideal Feat .f32 :=
  fun i => denseAt a f Wl b Wr (i 0) (i 1)

/-- The score of node r: its feature row against the head's weights, plus the head's bias. -/
def scoreAt (h : FVec Ideal Feat .f32) (w : FVec Ideal HeadW .f32) (b0 : EReal) (r : Fin 100000) : EReal :=
  (∑ k : Fin 128, h (ix2 r k) * w (ix2 (0 : Fin 1) k)) + b0

/-- The scores as a whole array. -/
def score (h : FVec Ideal Feat .f32) (w : FVec Ideal HeadW .f32) (b0 : EReal) : FVec Ideal ScoreS .f32 :=
  fun i => scoreAt h w b0 (i 0)

end Cert.Sage

end
-- ==== Proof.Grid0.lean ====
/-
  The first dense layer's grid: what its output array holds afterwards, at ANY contents `V` of the buffers it finds.

  The grid has 20 points; point t stages rows 5000·t … 5000·t + 4999 of the aggregate and of the features, the
  two weight matrices and the bias row whole, and writes back rows 5000·t … 5000·t + 4999 of the output. What
  the body stores at (p, q) of its block is the dense step's entry at row 5000·t + p and column q of the arrays
  the grid finds, so every write-back is its block of ONE whole array; the 20 blocks tile the output, so after
  the grid the output array is that array.
-/
import proofs.«122160_j52089363366199_1_alg».proof.Proof.KernelIdealFrameP
import proofs.«122160_j52089363366199_1_alg».proof.Proof.Payload
import proofs.«122160_j52089363366199_1_alg».proof.Proof.Spec
import Idealize.ShloMosaic.Lib.Pipeline.Value

set_option maxRecDepth 16384

noncomputable section

namespace Cert.KernelIdeal.Grid0

open Cert.KernelIdeal Cert.KernelIdeal.Gen Cert.KernelIdeal.GenP Cert.KernelIdeal.Payload Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 20 points: the three row-blocked windows sit at block (t, 0), the three whole
    ones at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each window's block, read off the array the grid finds -/

/-- The aggregate's block at point t is its rows 5000·t … 5000·t + 4999. -/
theorem agg_rows (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_v22 : S100000x128.Idx → Elt Ideal .f32) k := by
  obtain ⟨e0, e1, -⟩ := idx_facts t
  unfold iblk0
  rw [View.read_apply]
  show V c main_v22 _ = V c main_v22 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The features' block at point t is their rows 5000·t … 5000·t + 4999. -/
theorem feat_rows (c : Dev nD) (t : Fin cfg0.N) (x : S5000x128.Idx) (k : S100000x128.Idx)
    (hk0 : (k 0).val = 5000 * t.val + (x 0).val) (hk1 : (k 1).val = (x 1).val) :
    (iblk0 V c 1 t : Vec Ideal S5000x128 .f32) x = (V c main_arg0 : S100000x128.Idx → Elt Ideal .f32) k := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 5000 + 1 * (x 0).val = (k 0).val; rw [e0, hk0]; omega
  | ⟨1, _⟩ => show win0_1.index t 1 * 128 + 1 * (x 1).val = (k 1).val; rw [e1, hk1]; omega

/-- The first weight matrix is staged whole at every point. -/
theorem wl_whole (c : Dev nD) (t : Fin cfg0.N) (x : S128x128.Idx) :
    (iblk0 V c 2 t : Vec Ideal S128x128 .f32) x = (V c main_arg2 : S128x128.Idx → Elt Ideal .f32) x := by
  obtain ⟨-, -, -, -, e0, e1, -⟩ := idx_facts t
  unfold iblk0
  rw [View.read_apply]
  show V c main_arg2 _ = V c main_arg2 _
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The bias row is staged whole at every point. -/
theorem bias_whole (c : Dev nD) (t : Fin cfg0.N) (x : S1x128.Idx) :
    (iblk0 V c 3 t : Vec Ideal S1x128 .f32) x = (V c main_v23 : S1x128.Idx → Elt Ideal .f32) x := by
  obtain ⟨-, -, -, -, -, -, e0, e1, -⟩ := idx_facts t
  unfold iblk0
  rw [View.read_apply]
  show V c main_v23 _ = V c main_v23 _
  congr 1
  funext a
  apply Fin.ext
  match a with
  | ⟨0, _⟩ => show win0_3.index t 0 * 1 + 1 * (x 0).val = (x 0).val; rw [e0]; omega
  | ⟨1, _⟩ => show win0_3.index t 1 * 128 + 1 * (x 1).val = (x 1).val; rw [e1]; omega

/-- The second weight matrix is staged whole at every point. -/
theorem wr_whole (c : Dev nD) (t : Fin cfg0.N) (x : S128x128.Idx) :
    (iblk0 V c 4 t : Vec Ideal S128x128 .f32) x = (V c main_arg4 : S128x128.Idx → Elt Ideal .f32) x := by
  obtain ⟨-, -, -, -, -, -, -, -, e0, e1, -⟩ := idx_facts t
  unfold iblk0
  rw [View.read_apply]
  show V c main_arg4 _ = V c main_arg4 _
  congr 1
  funext a
  apply Fin.ext
  match a with
  | ⟨0, _⟩ => show win0_4.index t 0 * 128 + 1 * (x 0).val = (x 0).val; rw [e0]; omega
  | ⟨1, _⟩ => show win0_4.index t 1 * 128 + 1 * (x 1).val = (x 1).val; rw [e1]; omega

/-! ## The output array -/

/-- What the output array holds after the grid: the dense step of the arrays the grid finds. -/
abbrev result (c : Dev nD) : S100000x128.Idx → Elt Ideal .f32 :=
  dense (V c main_v22) (V c main_arg0) (V c main_arg2) (fun j => (V c main_v23 : S1x128.Idx → Elt Ideal .f32) (ix2 (0 : Fin 1) j)) (V c main_arg4)

/-- What point t writes back is block t of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  have ht : t.val < 20 := by have h := t.isLt; have hN : cfg0.N = 20 := N_0; omega
  funext j
  obtain ⟨p, q, rfl⟩ : ∃ (p : Fin 5000) (q : Fin 128), j = ix2 p q := ⟨j 0, j 1, eq_ix2 j⟩
  have hp : p.val < 5000 := p.isLt
  have hq : q.val < 128 := q.isLt
  have hemb : ((cfg0.win 5).blk t).view.emb (ix2 p q) = ix2 (⟨5000 * t.val + p.val, by omega⟩ : Fin 100000) q := by
    funext a
    apply Fin.ext
    match a with
    | ⟨0, _⟩ => show win0_5.index t 0 * 5000 + 1 * p.val = 5000 * t.val + p.val; rw [e0]; omega
    | ⟨1, _⟩ => show win0_5.index t 1 * 128 + 1 * q.val = q.val; rw [e1]; omega
  show k0_pay1 (iblk0 V c 0 t) (iblk0 V c 1 t) (iblk0 V c 2 t) (iblk0 V c 4 t) (iblk0 V c 3 t) (ix2 p q)
    = result V c (((cfg0.win 5).blk t).view.emb (ix2 p q))
  rw [hemb]
  refine (layer1_apply (iblk0 V c 0 t) (iblk0 V c 1 t) (iblk0 V c 2 t) (iblk0 V c 4 t) (iblk0 V c 3 t) p q).trans ?_
  show _ = denseAt (V c main_v22) (V c main_arg0) (V c main_arg2) (fun j => (V c main_v23 : S1x128.Idx → Elt Ideal .f32) (ix2 (0 : Fin 1) j)) (V c main_arg4) ⟨5000 * t.val + p.val, by omega⟩ q
  unfold denseAt
  have ha : ∀ k : Fin 128, (iblk0 V c 0 t : Vec Ideal S5000x128 .f32) (ix2 p k) = (V c main_v22 : S100000x128.Idx → Elt Ideal .f32) (ix2 (⟨5000 * t.val + p.val, by omega⟩ : Fin 100000) k) :=
    fun k => agg_rows V c t _ _ rfl rfl
  have hf : ∀ k : Fin 128, (iblk0 V c 1 t : Vec Ideal S5000x128 .f32) (ix2 p k) = (V c main_arg0 : S100000x128.Idx → Elt Ideal .f32) (ix2 (⟨5000 * t.val + p.val, by omega⟩ : Fin 100000) k) :=
    fun k => feat_rows V c t _ _ rfl rfl
  simp only [ha, hf, wl_whole V c t, wr_whole V c t, bias_whole V c t]

/-- An index of the output array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Row r of the output lies in the block of point r / 5000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_5 _, ?_⟩
  obtain ⟨-, -, -, -, -, -, -, -, -, -, e0, e1⟩ := idx_facts (⟨(i 0).val / 5000, by rw [hN]; omega⟩ : Fin cfg0.N)
  rw [mem_blk]
  intro a
  match a with
  | ⟨0, _⟩ =>
    show win0_5.index _ (0 : Fin 2) * 5000 ≤ (i 0).val ∧ (i 0).val < win0_5.index _ (0 : Fin 2) * 5000 + 5000
    rw [e0]
    show (i 0).val / 5000 * 5000 ≤ (i 0).val ∧ (i 0).val < (i 0).val / 5000 * 5000 + 5000
    omega
  | ⟨1, _⟩ =>
    show win0_5.index _ (1 : Fin 2) * 128 ≤ (i 1).val ∧ (i 1).val < win0_5.index _ (1 : Fin 2) * 128 + 128
    rw [e1]
    omega

/-- After the grid the output array is `result`. -/
theorem final (c : Dev nD) : (dat0 V c).arrAt 5 cfg0.N = result V c :=
  (dat0 V c).arrAt_eq_of_cover 5 (result V c) (fun t _ => flushed_eq V c t) cover

end Cert.KernelIdeal.Grid0

end
-- ==== Proof.Grid1.lean ====
/-
  The second dense layer's grid: what its output array holds afterwards, at ANY contents `V` of the buffers it finds.

  The grid has 20 points; point t stages rows 5000·t … 5000·t + 4999 of the aggregate and of the features, the
  two weight matrices and the bias row whole, and writes back rows 5000·t … 5000·t + 4999 of the output. What
  the body stores at (p, q) of its block is the dense step's entry at row 5000·t + p and column q of the arrays
  the grid finds, so every write-back is its block of ONE whole array; the 20 blocks tile the output, so after
  the grid the output array is that array.
-/
import proofs.«122160_j52089363366199_1_alg».proof.Proof.KernelIdealFrameP
import proofs.«122160_j52089363366199_1_alg».proof.Proof.Payload
import proofs.«122160_j52089363366199_1_alg».proof.Proof.Spec
import Idealize.ShloMosaic.Lib.Pipeline.Value

set_option maxRecDepth 16384

noncomputable section

namespace Cert.KernelIdeal.Grid1

open Cert.KernelIdeal Cert.KernelIdeal.Gen Cert.KernelIdeal.GenP Cert.KernelIdeal.Payload Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 20 points: the three row-blocked windows sit at block (t, 0), the three whole
    ones at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each window's block, read off the array the grid finds -/

/-- The aggregate's block at point t is its rows 5000·t … 5000·t + 4999. -/
theorem agg_rows (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c main_v47 : S100000x128.Idx → Elt Ideal .f32) k := by
  obtain ⟨e0, e1, -⟩ := idx_facts t
  unfold iblk1
  rw [View.read_apply]
  show V c main_v47 _ = V c main_v47 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The features' block at point t is their rows 5000·t … 5000·t + 4999. -/
theorem feat_rows (c : Dev nD) (t : Fin cfg1.N) (x : S5000x128.Idx) (k : S100000x128.Idx)
    (hk0 : (k 0).val = 5000 * t.val + (x 0).val) (hk1 : (k 1).val = (x 1).val) :
    (iblk1 V c 1 t : Vec Ideal S5000x128 .f32) x = (V c main_v24 : S100000x128.Idx → Elt Ideal .f32) k := by
  obtain ⟨-, -, e0, e1, -⟩ := idx_facts t
  unfold iblk1
  rw [View.read_apply]
  show V c main_v24 _ = V c main_v24 _
  congr 1
  funext a
  apply Fin.ext
  match a with
  | ⟨0, _⟩ => show win1_1.index t 0 * 5000 + 1 * (x 0).val = (k 0).val; rw [e0, hk0]; omega
  | ⟨1, _⟩ => show win1_1.index t 1 * 128 + 1 * (x 1).val = (k 1).val; rw [e1, hk1]; omega

/-- The first weight matrix is staged whole at every point. -/
theorem wl_whole (c : Dev nD) (t : Fin cfg1.N) (x : S128x128.Idx) :
    (iblk1 V c 2 t : Vec Ideal S128x128 .f32) x = (V c main_arg5 : S128x128.Idx → Elt Ideal .f32) x := by
  obtain ⟨-, -, -, -, e0, e1, -⟩ := idx_facts t
  unfold iblk1
  rw [View.read_apply]
  show V c main_arg5 _ = V c main_arg5 _
  congr 1
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- The bias row is staged whole at every point. -/
theorem bias_whole (c : Dev nD) (t : Fin cfg1.N) (x : S1x128.Idx) :
    (iblk1 V c 3 t : Vec Ideal S1x128 .f32) x = (V c main_v48 : S1x128.Idx → Elt Ideal .f32) x := by
  obtain ⟨-, -, -, -, -, -, e0, e1, -⟩ := idx_facts t
  unfold iblk1
  rw [View.read_apply]
  show V c main_v48 _ = V c main_v48 _
  congr 1
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

/-- The second weight matrix is staged whole at every point. -/
theorem wr_whole (c : Dev nD) (t : Fin cfg1.N) (x : S128x128.Idx) :
    (iblk1 V c 4 t : Vec Ideal S128x128 .f32) x = (V c main_arg7 : S128x128.Idx → Elt Ideal .f32) x := by
  obtain ⟨-, -, -, -, -, -, -, -, e0, e1, -⟩ := idx_facts t
  unfold iblk1
  rw [View.read_apply]
  show V c main_arg7 _ = V c main_arg7 _
  congr 1
  funext a
  apply Fin.ext
  match a with
  | ⟨0, _⟩ => show win1_4.index t 0 * 128 + 1 * (x 0).val = (x 0).val; rw [e0]; omega
  | ⟨1, _⟩ => show win1_4.index t 1 * 128 + 1 * (x 1).val = (x 1).val; rw [e1]; omega

/-! ## The output array -/

/-- What the output array holds after the grid: the dense step of the arrays the grid finds. -/
abbrev result (c : Dev nD) : S100000x128.Idx → Elt Ideal .f32 :=
  dense (V c main_v47) (V c main_v24) (V c main_arg5) (fun j => (V c main_v48 : S1x128.Idx → Elt Ideal .f32) (ix2 (0 : Fin 1) j)) (V c main_arg7)

/-- What point t writes back is block t of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  have ht : t.val < 20 := by have h := t.isLt; have hN : cfg1.N = 20 := N_1; omega
  funext j
  obtain ⟨p, q, rfl⟩ : ∃ (p : Fin 5000) (q : Fin 128), j = ix2 p q := ⟨j 0, j 1, eq_ix2 j⟩
  have hp : p.val < 5000 := p.isLt
  have hq : q.val < 128 := q.isLt
  have hemb : ((cfg1.win 5).blk t).view.emb (ix2 p q) = ix2 (⟨5000 * t.val + p.val, by omega⟩ : Fin 100000) q := by
    funext a
    apply Fin.ext
    match a with
    | ⟨0, _⟩ => show win1_5.index t 0 * 5000 + 1 * p.val = 5000 * t.val + p.val; rw [e0]; omega
    | ⟨1, _⟩ => show win1_5.index t 1 * 128 + 1 * q.val = q.val; rw [e1]; omega
  show k1_pay1 (iblk1 V c 0 t) (iblk1 V c 1 t) (iblk1 V c 2 t) (iblk1 V c 4 t) (iblk1 V c 3 t) (ix2 p q)
    = result V c (((cfg1.win 5).blk t).view.emb (ix2 p q))
  rw [hemb]
  refine (layer2_apply (iblk1 V c 0 t) (iblk1 V c 1 t) (iblk1 V c 2 t) (iblk1 V c 4 t) (iblk1 V c 3 t) p q).trans ?_
  show _ = denseAt (V c main_v47) (V c main_v24) (V c main_arg5) (fun j => (V c main_v48 : S1x128.Idx → Elt Ideal .f32) (ix2 (0 : Fin 1) j)) (V c main_arg7) ⟨5000 * t.val + p.val, by omega⟩ q
  unfold denseAt
  have ha : ∀ k : Fin 128, (iblk1 V c 0 t : Vec Ideal S5000x128 .f32) (ix2 p k) = (V c main_v47 : S100000x128.Idx → Elt Ideal .f32) (ix2 (⟨5000 * t.val + p.val, by omega⟩ : Fin 100000) k) :=
    fun k => agg_rows V c t _ _ rfl rfl
  have hf : ∀ k : Fin 128, (iblk1 V c 1 t : Vec Ideal S5000x128 .f32) (ix2 p k) = (V c main_v24 : S100000x128.Idx → Elt Ideal .f32) (ix2 (⟨5000 * t.val + p.val, by omega⟩ : Fin 100000) k) :=
    fun k => feat_rows V c t _ _ rfl rfl
  simp only [ha, hf, wl_whole V c t, wr_whole V c t, bias_whole V c t]

/-- An index of the output array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v49).slice (win1_5.rect t)).set ↔ _
  rw [View.set_slice_whole, Rect.mem_set_unit]
  exact Iff.rfl

/-- Row r of the output lies in the block of point r / 5000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  obtain ⟨-, -, -, -, -, -, -, -, -, -, e0, e1⟩ := idx_facts (⟨(i 0).val / 5000, by rw [hN]; omega⟩ : Fin cfg1.N)
  rw [mem_blk]
  intro a
  match a with
  | ⟨0, _⟩ =>
    show win1_5.index _ (0 : Fin 2) * 5000 ≤ (i 0).val ∧ (i 0).val < win1_5.index _ (0 : Fin 2) * 5000 + 5000
    rw [e0]
    show (i 0).val / 5000 * 5000 ≤ (i 0).val ∧ (i 0).val < (i 0).val / 5000 * 5000 + 5000
    omega
  | ⟨1, _⟩ =>
    show win1_5.index _ (1 : Fin 2) * 128 ≤ (i 1).val ∧ (i 1).val < win1_5.index _ (1 : Fin 2) * 128 + 128
    rw [e1]
    omega

/-- After the grid the output array is `result`. -/
theorem final (c : Dev nD) : (dat1 V c).arrAt 5 cfg1.N = result V c :=
  (dat1 V c).arrAt_eq_of_cover 5 (result V c) (fun t _ => flushed_eq V c t) cover

end Cert.KernelIdeal.Grid1

end
-- ==== Proof.Grid2.lean ====
/-
  The head's grid: what the score array holds afterwards, at ANY contents `V` of the buffers it finds.

  The grid has 20 points; point t stages rows 5000·t … 5000·t + 4999 of the embedding, the head's weight row and
  its single bias entry whole, and writes back rows 5000·t … 5000·t + 4999 of the one-column score array. What
  the body stores at (p, 0) of its block is the score of node 5000·t + p, so every write-back is its block of ONE
  whole array; the 20 blocks tile the score array, so after the grid it is that array.
-/
import proofs.«122160_j52089363366199_1_alg».proof.Proof.KernelIdealFrameP
import proofs.«122160_j52089363366199_1_alg».proof.Proof.Payload
import proofs.«122160_j52089363366199_1_alg».proof.Proof.Spec
import Idealize.ShloMosaic.Lib.Pipeline.Value

set_option maxRecDepth 16384

noncomputable section

namespace Cert.KernelIdeal.Grid2

open Cert.KernelIdeal Cert.KernelIdeal.Gen Cert.KernelIdeal.GenP Cert.KernelIdeal.Payload Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 20 points: the two row-blocked windows sit at block (t, 0), the two whole ones
    at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-! ## Each window's block, read off the array the grid finds -/

/-- The embedding's block at point t is its rows 5000·t … 5000·t + 4999. -/
theorem emb_rows (c : Dev nD) (t : Fin cfg2.N) (x : S5000x128.Idx) (k : S100000x128.Idx)
    (hk0 : (k 0).val = 5000 * t.val + (x 0).val) (hk1 : (k 1).val = (x 1).val) :
    (iblk2 V c 0 t : Vec Ideal S5000x128 .f32) x = (V c main_v49 : S100000x128.Idx → Elt Ideal .f32) k := by
  obtain ⟨e0, e1, -⟩ := idx_facts t
  unfold iblk2
  rw [View.read_apply]
  show V c main_v49 _ = V c main_v49 _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The head's weight row is staged whole at every point. -/
theorem w_whole (c : Dev nD) (t : Fin cfg2.N) (x : S1x128.Idx) :
    (iblk2 V c 1 t : Vec Ideal S1x128 .f32) x = (V c main_arg8 : S1x128.Idx → Elt Ideal .f32) x := by
  obtain ⟨-, -, e0, e1, -⟩ := idx_facts t
  unfold iblk2
  rw [View.read_apply]
  show V c main_arg8 _ = V c main_arg8 _
  congr 1
  funext a
  apply Fin.ext
  match a with
  | ⟨0, _⟩ => show win2_1.index t 0 * 1 + 1 * (x 0).val = (x 0).val; rw [e0]; omega
  | ⟨1, _⟩ => show win2_1.index t 1 * 128 + 1 * (x 1).val = (x 1).val; rw [e1]; omega

/-- The head's bias entry is staged whole at every point. -/
theorem b_whole (c : Dev nD) (t : Fin cfg2.N) (x : S1x1.Idx) :
    (iblk2 V c 2 t : Vec Ideal S1x1 .f32) x = (V c main_v50 : S1x1.Idx → Elt Ideal .f32) x := by
  obtain ⟨-, -, -, -, e0, e1, -⟩ := idx_facts t
  unfold iblk2
  rw [View.read_apply]
  show V c main_v50 _ = V c main_v50 _
  congr 1
  funext a
  apply Fin.ext
  match a with
  | ⟨0, _⟩ => show win2_2.index t 0 * 1 + 1 * (x 0).val = (x 0).val; rw [e0]; omega
  | ⟨1, _⟩ => show win2_2.index t 1 * 1 + 1 * (x 1).val = (x 1).val; rw [e1]; omega

/-! ## The score array -/

/-- What the score array holds after the grid: the head applied to the embedding the grid finds. -/
abbrev result (c : Dev nD) : S100000x1.Idx → Elt Ideal .f32 :=
  score (V c main_v49) (V c main_arg8) ((V c main_v50 : S1x1.Idx → Elt Ideal .f32) (ix2 (0 : Fin 1) (0 : Fin 1)))

/-- What point t writes back is block t of `result`. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S1x1) hz]
  obtain ⟨-, -, -, -, -, -, e0, e1⟩ := idx_facts t
  have ht : t.val < 20 := by have h := t.isLt; have hN : cfg2.N = 20 := N_2; omega
  funext j
  obtain ⟨p, q, rfl⟩ : ∃ (p : Fin 5000) (q : Fin 1), j = ix2 p q := ⟨j 0, j 1, eq_ix2 j⟩
  obtain rfl : q = (0 : Fin 1) := Fin.ext (by have := q.isLt; omega)
  have hp : p.val < 5000 := p.isLt
  have hemb : ((cfg2.win 3).blk t).view.emb (ix2 p (0 : Fin 1)) = ix2 (⟨5000 * t.val + p.val, by omega⟩ : Fin 100000) (0 : Fin 1) := by
    funext a
    apply Fin.ext
    match a with
    | ⟨0, _⟩ => show win2_3.index t 0 * 5000 + 1 * p.val = 5000 * t.val + p.val; rw [e0]; omega
    | ⟨1, _⟩ => show win2_3.index t 1 * 1 + 1 * 0 = 0; rw [e1]
  show k2_pay1 (iblk2 V c 0 t) (iblk2 V c 1 t) (iblk2 V c 2 t) (ix2 p (0 : Fin 1))
    = result V c (((cfg2.win 3).blk t).view.emb (ix2 p (0 : Fin 1)))
  rw [hemb]
  refine (head_apply (iblk2 V c 0 t) (iblk2 V c 1 t) (iblk2 V c 2 t) p).trans ?_
  show _ = scoreAt (V c main_v49) (V c main_arg8) ((V c main_v50 : S1x1.Idx → Elt Ideal .f32) (ix2 (0 : Fin 1) (0 : Fin 1))) ⟨5000 * t.val + p.val, by omega⟩
  unfold scoreAt
  have hh : ∀ k : Fin 128, (iblk2 V c 0 t : Vec Ideal S5000x128 .f32) (ix2 p k) = (V c main_v49 : S100000x128.Idx → Elt Ideal .f32) (ix2 (⟨5000 * t.val + p.val, by omega⟩ : Fin 100000) k) :=
    fun k => emb_rows V c t _ _ rfl rfl
  simp only [hh, w_whole V c t, b_whole V c t]

/-- An index of the score array is in point t's block iff each coordinate is in the block's range on its axis. -/
theorem mem_blk (t : Fin cfg2.N) (i : S100000x1.Idx) :
    i ∈ ((cfg2.win 3).blk t).view.set ↔ ∀ a : Fin 2, win2_3.index t a * S5000x1.size a ≤ (i a).val ∧ (i a).val < win2_3.index t a * S5000x1.size a + S5000x1.size a := by
  show i ∈ ((View.whole main_v51).slice (win2_3.rect t)).set ↔ _
  rw [View.set_slice_whole, Rect.mem_set_unit]
  exact Iff.rfl

/-- Row r of the score array lies in the block of point r / 5000. -/
theorem cover (i : S100000x1.Idx) : ∃ t : Fin cfg2.N, (cfg2.win 3).flush t = true ∧ i ∈ ((cfg2.win 3).blk t).view.set := by
  have hi0 : (i 0).val < 100000 := (i 0).isLt
  have hi1 : (i 1).val < 1 := (i 1).isLt
  have hN : cfg2.N = 20 := N_2
  refine ⟨⟨(i 0).val / 5000, by rw [hN]; omega⟩, flush2_3 _, ?_⟩
  obtain ⟨-, -, -, -, -, -, e0, e1⟩ := idx_facts (⟨(i 0).val / 5000, by rw [hN]; omega⟩ : Fin cfg2.N)
  rw [mem_blk]
  intro a
  match a with
  | ⟨0, _⟩ =>
    show win2_3.index _ (0 : Fin 2) * 5000 ≤ (i 0).val ∧ (i 0).val < win2_3.index _ (0 : Fin 2) * 5000 + 5000
    rw [e0]
    show (i 0).val / 5000 * 5000 ≤ (i 0).val ∧ (i 0).val < (i 0).val / 5000 * 5000 + 5000
    omega
  | ⟨1, _⟩ =>
    show win2_3.index _ (1 : Fin 2) * 1 ≤ (i 1).val ∧ (i 1).val < win2_3.index _ (1 : Fin 2) * 1 + 1
    rw [e1]
    omega

/-- After the grid the score array is `result`. -/
theorem final (c : Dev nD) : (dat2 V c).arrAt 3 cfg2.N = result V c :=
  (dat2 V c).arrAt_eq_of_cover 3 (result V c) (fun t _ => flushed_eq V c t) cover

end Cert.KernelIdeal.Grid2

end
-- ==== Proof.Agg.lean ====
/-
  The neighbour mean both programs take before each dense layer, as ONE function of the feature array and the
  edge list: gather the source node's row for every edge (a negative source index wrapped by the node count),
  add the rows into their destination nodes, count the edges into each node the same way, and divide each
  node's sum by the larger of its count and one. Both programs spell it with the same host operations, so it is
  carried whole and never opened.
-/
import proofs.«122160_j52089363366199_1_alg».proof.Proof.Gen.ReferenceIdeal

noncomputable section

namespace Cert.Sage

open Idealize.ShloMosaic Cert.ReferenceIdeal Cert.ReferenceIdeal.Gen

variable {F : FTy → Type} [FloatOps F]

/-- The mean of `feat`'s rows over each node's incoming edges (`e`: row 0 the sources, row 1 the destinations). -/
def meanAgg (feat : (⟨S100000x128, .f32⟩ : BufTy).Contents (Elt F)) (e : (⟨S2x1600000, .i32⟩ : BufTy).Contents (Elt F)) :
    (⟨S100000x128, .f32⟩ : BufTy).Contents (Elt F) :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x128_S1600000x1_S1600000x128_1_0_n_n_0_1_1128 feat (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32)))))

end Cert.Sage

end
-- ==== Proof.Model.lean ====
/-
  The whole model as three arrays of the ten arguments: the first layer's output, the second layer's output (the
  embedding the program returns) and the scores. Each layer takes the neighbour mean of its input features and
  applies the dense step; the head scores the embedding.
-/
import proofs.«122160_j52089363366199_1_alg».proof.Proof.Spec
import proofs.«122160_j52089363366199_1_alg».proof.Proof.Agg

noncomputable section

namespace Cert.Sage

open Idealize.ShloMosaic Idealize.ShloMosaic.ValueIdx Cert.ReferenceIdeal

/-- The first layer's output. -/
def hidden (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) : FVec Ideal Feat .f32 :=
  dense (meanAgg (F := Ideal) x0 x1) x0 x2 (fun j => x3 (ix1 j)) x4

/-- The second layer's output: the embedding. -/
def embedding (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) : FVec Ideal Feat .f32 :=
  dense (meanAgg (F := Ideal) (hidden x0 x1 x2 x3 x4) x1) (hidden x0 x1 x2 x3 x4) x5 (fun j => x6 (ix1 j)) x7

/-- The scores. -/
def scores (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S1x128, .f32⟩ : BufTy).Contents (Elt Ideal)) (x9 : (⟨S1, .f32⟩ : BufTy).Contents (Elt Ideal)) : FVec Ideal ScoreS .f32 :=
  score (embedding x0 x1 x2 x3 x4 x5 x6 x7) x8 (x9 (ix1 (0 : Fin 1)))

end Cert.Sage

end
-- ==== Proof.Fold.lean ====
/-
  The buffer contents at the program's six segment boundaries, walked from the launch memory to the two results.

  A stretch of host operations leaves, in the buffers it writes, its operations' values of what it found, and every
  other buffer as found: the first two stretches compute the neighbour mean of a feature array and reshape a bias
  vector to a row; the last reshapes the head's bias to a 1×1 array. A grid leaves its output array at the dense
  step (or the head) of the arrays it finds, and every other buffer as found. Composing these: the first grid's
  output is the specification's first layer of the arguments, the second grid's its embedding, the third's its
  scores; the embedding is an INPUT of the third grid, which leaves it in place.
-/
import proofs.«122160_j52089363366199_1_alg».proof.Proof.KernelIdealFrameP
import proofs.«122160_j52089363366199_1_alg».proof.Proof.Grid0
import proofs.«122160_j52089363366199_1_alg».proof.Proof.Grid1
import proofs.«122160_j52089363366199_1_alg».proof.Proof.Grid2
import proofs.«122160_j52089363366199_1_alg».proof.Proof.Model
import Idealize.ShloMosaic.Lib.Pipeline.Value
import Idealize.ShloMosaic.Lib.StableHlo.Run

set_option maxRecDepth 16384

noncomputable section

namespace Cert.KernelIdeal.Fold

open Cert.KernelIdeal Cert.KernelIdeal.Gen Cert.KernelIdeal.GenP Cert.Sage
open Idealize.ShloMosaic Idealize.ShloMosaic.TcCoe Idealize.ShloMosaic.ValueIdx Idealize.SL.Sem Idealize.ShloMosaic.StableHlo
open Idealize.ShloMosaic.Pipeline (Dat)

/-! ## A bias vector reshaped to a row, and the head's bias reshaped to 1×1, read at an entry -/

theorem bias_row_entry (b : S128.Idx → Elt Ideal .f32) (j : Fin 128) :
    (shapeCast S1x128 b shapeCasts_S128_S1x128 : S1x128.Idx → Elt Ideal .f32) (ix2 (0 : Fin 1) j) = b (ix1 j) :=
  (shapeCast_addUnit_apply ![128] b shapeCasts_S128_S1x128 (ix2 (0 : Fin 1) j)).trans
    (congrArg b (funext fun a => by match a with | ⟨0, _⟩ => rfl))

theorem bias_one_entry (b : S1.Idx → Elt Ideal .f32) :
    (shapeCast S1x1 b shapeCasts_S1_S1x1 : S1x1.Idx → Elt Ideal .f32) (ix2 (0 : Fin 1) (0 : Fin 1)) = b (ix1 (0 : Fin 1)) :=
  (shapeCast_addUnit_apply ![1] b shapeCasts_S1_S1x1 (ix2 (0 : Fin 1) (0 : Fin 1))).trans
    (congrArg b (funext fun a => by match a with | ⟨0, _⟩ => rfl))

/-! ## What each stretch of host operations leaves, from any contents `W` -/

section Stretches
variable (W : Valuation τ sig (Elt Ideal))

/-- The first stretch leaves the neighbour mean of the input features. -/
theorem s0_agg : after (hostOps0 (F := Ideal)) W (Proc.devRef .tc main_v22)
    = meanAgg (F := Ideal) (W (Proc.devRef .tc main_arg0)) (W (Proc.devRef .tc main_arg1)) := by
  after_results_simp <;> first | rfl | (unfold meanAgg; rfl)
/-- … and the first bias as a row. -/
theorem s0_bias : after (hostOps0 (F := Ideal)) W (Proc.devRef .tc main_v23)
    = shapeCast S1x128 (W (Proc.devRef .tc main_arg3)) shapeCasts_S128_S1x128 := by
  after_results_simp <;> rfl
theorem s0_keep_arg0 : after (hostOps0 (F := Ideal)) W (Proc.devRef .tc main_arg0) = W (Proc.devRef .tc main_arg0) := by
  after_results_simp <;> rfl
theorem s0_keep_arg1 : after (hostOps0 (F := Ideal)) W (Proc.devRef .tc main_arg1) = W (Proc.devRef .tc main_arg1) := by
  after_results_simp <;> rfl
theorem s0_keep_arg2 : after (hostOps0 (F := Ideal)) W (Proc.devRef .tc main_arg2) = W (Proc.devRef .tc main_arg2) := by
  after_results_simp <;> rfl
theorem s0_keep_arg4 : after (hostOps0 (F := Ideal)) W (Proc.devRef .tc main_arg4) = W (Proc.devRef .tc main_arg4) := by
  after_results_simp <;> rfl
theorem s0_keep_arg5 : after (hostOps0 (F := Ideal)) W (Proc.devRef .tc main_arg5) = W (Proc.devRef .tc main_arg5) := by
  after_results_simp <;> rfl
theorem s0_keep_arg6 : after (hostOps0 (F := Ideal)) W (Proc.devRef .tc main_arg6) = W (Proc.devRef .tc main_arg6) := by
  after_results_simp <;> rfl
theorem s0_keep_arg7 : after (hostOps0 (F := Ideal)) W (Proc.devRef .tc main_arg7) = W (Proc.devRef .tc main_arg7) := by
  after_results_simp <;> rfl
theorem s0_keep_arg8 : after (hostOps0 (F := Ideal)) W (Proc.devRef .tc main_arg8) = W (Proc.devRef .tc main_arg8) := by
  after_results_simp <;> rfl
theorem s0_keep_arg9 : after (hostOps0 (F := Ideal)) W (Proc.devRef .tc main_arg9) = W (Proc.devRef .tc main_arg9) := by
  after_results_simp <;> rfl

/-- The second stretch leaves the neighbour mean of the first layer's output. -/
theorem s1_agg : after (hostOps1 (F := Ideal)) W (Proc.devRef .tc main_v47)
    = meanAgg (F := Ideal) (W (Proc.devRef .tc main_v24)) (W (Proc.devRef .tc main_arg1)) := by
  after_results_simp <;> first | rfl | (unfold meanAgg; rfl)
/-- … and the second bias as a row. -/
theorem s1_bias : after (hostOps1 (F := Ideal)) W (Proc.devRef .tc main_v48)
    = shapeCast S1x128 (W (Proc.devRef .tc main_arg6)) shapeCasts_S128_S1x128 := by
  after_results_simp <;> rfl
theorem s1_keep_v24 : after (hostOps1 (F := Ideal)) W (Proc.devRef .tc main_v24) = W (Proc.devRef .tc main_v24) := by
  after_results_simp <;> rfl
theorem s1_keep_arg5 : after (hostOps1 (F := Ideal)) W (Proc.devRef .tc main_arg5) = W (Proc.devRef .tc main_arg5) := by
  after_results_simp <;> rfl
theorem s1_keep_arg7 : after (hostOps1 (F := Ideal)) W (Proc.devRef .tc main_arg7) = W (Proc.devRef .tc main_arg7) := by
  after_results_simp <;> rfl
theorem s1_keep_arg8 : after (hostOps1 (F := Ideal)) W (Proc.devRef .tc main_arg8) = W (Proc.devRef .tc main_arg8) := by
  after_results_simp <;> rfl
theorem s1_keep_arg9 : after (hostOps1 (F := Ideal)) W (Proc.devRef .tc main_arg9) = W (Proc.devRef .tc main_arg9) := by
  after_results_simp <;> rfl

/-- The third stretch leaves the head's bias as a 1×1 array. -/
theorem s2_bias : after (hostOps2 (F := Ideal)) W (Proc.devRef .tc main_v50)
    = shapeCast S1x1 (W (Proc.devRef .tc main_arg9)) shapeCasts_S1_S1x1 := by
  after_results_simp <;> rfl
theorem s2_keep_v49 : after (hostOps2 (F := Ideal)) W (Proc.devRef .tc main_v49) = W (Proc.devRef .tc main_v49) := by
  after_results_simp <;> rfl
theorem s2_keep_arg8 : after (hostOps2 (F := Ideal)) W (Proc.devRef .tc main_arg8) = W (Proc.devRef .tc main_arg8) := by
  after_results_simp <;> rfl

end Stretches

/-! ## A grid's result from what it finds -/

section Grids
variable (V : (c : Dev nD) → (b : Ref sig .tc) → Buf (Elt Ideal) ((c : Thread nD τ).loc b)) (c : Dev nD)

/-- A dense grid that finds the neighbour mean of `f`, `f` itself, two weight matrices and a bias row leaves the
    specification's dense step of them (first layer's buffers). -/
theorem grid0_of (a f : FVec Ideal Feat .f32) (wl wr : FVec Ideal Wt .f32) (b : S128.Idx → Elt Ideal .f32)
    (ha : V c main_v22 = a) (hf : V c main_arg0 = f) (hwl : V c main_arg2 = wl)
    (hb : V c main_v23 = shapeCast S1x128 b shapeCasts_S128_S1x128) (hwr : V c main_arg4 = wr) :
    Grid0.result V c = dense a f wl (fun j => b (ix1 j)) wr := by
  show dense (V c main_v22) (V c main_arg0) (V c main_arg2) (fun j => (V c main_v23 : S1x128.Idx → Elt Ideal .f32) (ix2 (0 : Fin 1) j)) (V c main_arg4) = _
  rw [ha, hf, hwl, hb, hwr]
  exact congrArg (fun β => dense a f wl β wr) (funext fun j => bias_row_entry b j)

/-- The same for the second layer's buffers. -/
theorem grid1_of (a f : FVec Ideal Feat .f32) (wl wr : FVec Ideal Wt .f32) (b : S128.Idx → Elt Ideal .f32)
    (ha : V c main_v47 = a) (hf : V c main_v24 = f) (hwl : V c main_arg5 = wl)
    (hb : V c main_v48 = shapeCast S1x128 b shapeCasts_S128_S1x128) (hwr : V c main_arg7 = wr) :
    Grid1.result V c = dense a f wl (fun j => b (ix1 j)) wr := by
  show dense (V c main_v47) (V c main_v24) (V c main_arg5) (fun j => (V c main_v48 : S1x128.Idx → Elt Ideal .f32) (ix2 (0 : Fin 1) j)) (V c main_arg7) = _
  rw [ha, hf, hwl, hb, hwr]
  exact congrArg (fun β => dense a f wl β wr) (funext fun j => bias_row_entry b j)

/-- The head's grid that finds an embedding, the head's weights and its bias as a 1×1 array leaves the scores. -/
theorem grid2_of (h : FVec Ideal Feat .f32) (w : FVec Ideal HeadW .f32) (b : S1.Idx → Elt Ideal .f32)
    (hh : V c main_v49 = h) (hw : V c main_arg8 = w) (hb : V c main_v50 = shapeCast S1x1 b shapeCasts_S1_S1x1) :
    Grid2.result V c = score h w (b (ix1 (0 : Fin 1))) := by
  show score (V c main_v49) (V c main_arg8) ((V c main_v50 : S1x1.Idx → Elt Ideal .f32) (ix2 (0 : Fin 1) (0 : Fin 1))) = _
  rw [hh, hw, hb, bias_one_entry]

end Grids

/-! ## The boundaries -/

variable (m : (ℓ : Loc nD τ sig) → Buf (Elt Ideal) ℓ) (ρ : Dev nD → PrngReg) (c : Dev nD)

/-- The first grid's output array: the specification's first layer of the arguments. -/
theorem first_layer : W2 m ρ c (Proc.devRef .tc main_v24)
    = hidden (m ((c : Thread nD τ).loc main_arg0)) (m ((c : Thread nD τ).loc main_arg1)) (m ((c : Thread nD τ).loc main_arg2)) (m ((c : Thread nD τ).loc main_arg3)) (m ((c : Thread nD τ).loc main_arg4)) :=
  ((W2_arr m ρ c 5).trans (Grid0.final (V1 m ρ) c)).trans
    (grid0_of (V1 m ρ) c _ _ _ _ _ (s0_agg (W0 m ρ c)) (s0_keep_arg0 (W0 m ρ c)) (s0_keep_arg2 (W0 m ρ c))
      (s0_bias (W0 m ρ c)) (s0_keep_arg4 (W0 m ρ c)))

/-- An argument the first grid does not stage reaches the second stretch as launched. -/
theorem W2_arg1 : W2 m ρ c (Proc.devRef .tc main_arg1) = (m ((c : Thread nD τ).loc main_arg1)) :=
  (W2_of_ne m ρ c main_arg1 (by decide)).trans (s0_keep_arg1 (W0 m ρ c))
theorem W2_arg5 : W2 m ρ c (Proc.devRef .tc main_arg5) = (m ((c : Thread nD τ).loc main_arg5)) :=
  (W2_of_ne m ρ c main_arg5 (by decide)).trans (s0_keep_arg5 (W0 m ρ c))
theorem W2_arg6 : W2 m ρ c (Proc.devRef .tc main_arg6) = (m ((c : Thread nD τ).loc main_arg6)) :=
  (W2_of_ne m ρ c main_arg6 (by decide)).trans (s0_keep_arg6 (W0 m ρ c))
theorem W2_arg7 : W2 m ρ c (Proc.devRef .tc main_arg7) = (m ((c : Thread nD τ).loc main_arg7)) :=
  (W2_of_ne m ρ c main_arg7 (by decide)).trans (s0_keep_arg7 (W0 m ρ c))
theorem W2_arg8 : W2 m ρ c (Proc.devRef .tc main_arg8) = (m ((c : Thread nD τ).loc main_arg8)) :=
  (W2_of_ne m ρ c main_arg8 (by decide)).trans (s0_keep_arg8 (W0 m ρ c))
theorem W2_arg9 : W2 m ρ c (Proc.devRef .tc main_arg9) = (m ((c : Thread nD τ).loc main_arg9)) :=
  (W2_of_ne m ρ c main_arg9 (by decide)).trans (s0_keep_arg9 (W0 m ρ c))

/-- The second grid's output array: the specification's embedding of the arguments. -/
theorem second_layer : W4 m ρ c (Proc.devRef .tc main_v49)
    = embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((W4_arr m ρ c 5).trans (Grid1.final (V3 m ρ) c)).trans
    (grid1_of (V3 m ρ) c _ _ _ _ _
      ((s1_agg (W2 m ρ c)).trans (by rw [first_layer, W2_arg1]))
      ((s1_keep_v24 (W2 m ρ c)).trans (first_layer m ρ c))
      ((s1_keep_arg5 (W2 m ρ c)).trans (W2_arg5 m ρ c))
      ((s1_bias (W2 m ρ c)).trans (by rw [W2_arg6]))
      ((s1_keep_arg7 (W2 m ρ c)).trans (W2_arg7 m ρ c)))

theorem W4_arg8 : W4 m ρ c (Proc.devRef .tc main_arg8) = (m ((c : Thread nD τ).loc main_arg8)) :=
  ((W4_of_ne m ρ c main_arg8 (by decide)).trans (s1_keep_arg8 (W2 m ρ c))).trans (W2_arg8 m ρ c)
theorem W4_arg9 : W4 m ρ c (Proc.devRef .tc main_arg9) = (m ((c : Thread nD τ).loc main_arg9)) :=
  ((W4_of_ne m ρ c main_arg9 (by decide)).trans (s1_keep_arg9 (W2 m ρ c))).trans (W2_arg9 m ρ c)

/-- What the head's grid finds in the embedding's buffer. -/
theorem V5_embedding : V5 m ρ c main_v49
    = embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (s2_keep_v49 (W4 m ρ c)).trans (second_layer m ρ c)

/-- THE SCORES: the third grid's output array at the last boundary. -/
theorem scores_at_end : W6 m ρ c (Proc.devRef .tc main_v51)
    = scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((W6_arr m ρ c 3).trans (Grid2.final (V5 m ρ) c)).trans
    (grid2_of (V5 m ρ) c _ _ _ (V5_embedding m ρ c)
      ((s2_keep_arg8 (W4 m ρ c)).trans (W4_arg8 m ρ c))
      ((s2_bias (W4 m ρ c)).trans (by rw [W4_arg9])))

/-- THE EMBEDDING at the last boundary: an input of the third grid, left as that grid found it. -/
theorem embedding_at_end : W6 m ρ c (Proc.devRef .tc main_v49)
    = embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((W6_arr m ρ c 0).trans (((dat2 (V5 m ρ) c).arrAt_in 0 rfl _).trans (A_eq2 (V5 m ρ) c 0))).trans (V5_embedding m ρ c)

end Cert.KernelIdeal.Fold

end
-- ==== Proof.RefValue.lean ====
/-
  The idealized reference, read as the specification.

  Its program is straight-line: the neighbour mean, then (mean · W1lᵀ) + b1 + (x · W1rᵀ) clamped at zero, the
  neighbour mean of that, the same dense step with the second layer's weights, and the head's product plus its
  bias. Each product is a sum over the contracted axis of (left[r,k] · right[k,j]) with the right operand a
  transposed weight matrix, so right[k,j] is weights[j,k]; each bias is broadcast along the rows. Read at an
  index, stage by stage, the two results are the specification's embedding and scores, with the neighbour mean
  carried as one function of the whole feature array.
-/
import proofs.«122160_j52089363366199_1_alg».proof.Proof.Gen.ReferenceIdeal.Read
import proofs.«122160_j52089363366199_1_alg».proof.Proof.Model

noncomputable section

namespace Cert.ReferenceIdeal.RefValue

open Cert.ReferenceIdeal Cert.ReferenceIdeal.Gen Cert.ReferenceIdeal.Read Cert.Sage
open Idealize.ShloMosaic Idealize.ShloMosaic.ValueIdx

/-! ## The neighbour mean is one function, both times it is taken -/

/-- The first layer's aggregate is the neighbour mean of the input features. -/
theorem agg1_eq (x0 : (⟨S100000x128, .f32⟩ : BufTy).Contents (Elt Ideal)) (x1 : (⟨S2x1600000, .i32⟩ : BufTy).Contents (Elt Ideal)) :
    val_main_v22 (F := Ideal) x0 x1 = meanAgg (F := Ideal) x0 x1 := by
  unfold meanAgg val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_c val_main_c_0 val_main_cst val_main_cst_1 val_main_cst_2 val_main_cst_3
  rfl

/-- The second layer's aggregate is the neighbour mean of the first layer's output: the same host operations,
    applied to that array. -/
theorem agg2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v54 (F := Ideal) x0 x1 x2 x3 x4 = meanAgg (F := Ideal) (val_main_v31 (F := Ideal) x0 x1 x2 x3 x4) x1 := by
  unfold meanAgg val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_c_4 val_main_c_5 val_main_cst_6 val_main_cst_7 val_main_cst_8 val_main_cst_9
  rfl

/-! ## Read's index functions are the specification's coordinates -/

theorem lrow24 (i : S100000x128.Idx) (k : Fin 128) : lidx_main_v24 i k = ix2 (n0 := 100000) (n1 := 128) (i 0) k :=
  funext fun a => Fin.ext (by match a with | ⟨0, _⟩ => rfl | ⟨1, _⟩ => rfl)
theorem wrow23 (i : S100000x128.Idx) (k : Fin 128) : idx_main_v23 (ridx_main_v24 i k) = ix2 (n0 := 128) (n1 := 128) (i 1) k :=
  funext fun a => Fin.ext (by match a with | ⟨0, _⟩ => rfl | ⟨1, _⟩ => rfl)
theorem bcol25 (i : S100000x128.Idx) : idx_main_v25 (idx_main_v26 i) = ix1 (n := 128) (i 1) :=
  funext fun a => Fin.ext (by match a with | ⟨0, _⟩ => rfl)
theorem lrow29 (i : S100000x128.Idx) (k : Fin 128) : lidx_main_v29 i k = ix2 (n0 := 100000) (n1 := 128) (i 0) k :=
  funext fun a => Fin.ext (by match a with | ⟨0, _⟩ => rfl | ⟨1, _⟩ => rfl)
theorem wrow28 (i : S100000x128.Idx) (k : Fin 128) : idx_main_v28 (ridx_main_v29 i k) = ix2 (n0 := 128) (n1 := 128) (i 1) k :=
  funext fun a => Fin.ext (by match a with | ⟨0, _⟩ => rfl | ⟨1, _⟩ => rfl)
theorem lrow56 (i : S100000x128.Idx) (k : Fin 128) : lidx_main_v56 i k = ix2 (n0 := 100000) (n1 := 128) (i 0) k :=
  funext fun a => Fin.ext (by match a with | ⟨0, _⟩ => rfl | ⟨1, _⟩ => rfl)
theorem wrow55 (i : S100000x128.Idx) (k : Fin 128) : idx_main_v55 (ridx_main_v56 i k) = ix2 (n0 := 128) (n1 := 128) (i 1) k :=
  funext fun a => Fin.ext (by match a with | ⟨0, _⟩ => rfl | ⟨1, _⟩ => rfl)
theorem bcol57 (i : S100000x128.Idx) : idx_main_v57 (idx_main_v58 i) = ix1 (n := 128) (i 1) :=
  funext fun a => Fin.ext (by match a with | ⟨0, _⟩ => rfl)
theorem lrow61 (i : S100000x128.Idx) (k : Fin 128) : lidx_main_v61 i k = ix2 (n0 := 100000) (n1 := 128) (i 0) k :=
  funext fun a => Fin.ext (by match a with | ⟨0, _⟩ => rfl | ⟨1, _⟩ => rfl)
theorem wrow60 (i : S100000x128.Idx) (k : Fin 128) : idx_main_v60 (ridx_main_v61 i k) = ix2 (n0 := 128) (n1 := 128) (i 1) k :=
  funext fun a => Fin.ext (by match a with | ⟨0, _⟩ => rfl | ⟨1, _⟩ => rfl)
theorem lrow65 (i : S100000x1.Idx) (k : Fin 128) : lidx_main_v65 i k = ix2 (n0 := 100000) (n1 := 128) (i 0) k :=
  funext fun a => Fin.ext (by match a with | ⟨0, _⟩ => rfl | ⟨1, _⟩ => rfl)
theorem wrow64 (i : S100000x1.Idx) (k : Fin 128) : idx_main_v64 (ridx_main_v65 i k) = ix2 (n0 := 1) (n1 := 128) (0 : Fin 1) k :=
  funext fun a => Fin.ext (by
    match a with
    | ⟨0, _⟩ => show (i 1).val = 0; have h : (i 1).val < 1 := (i 1).isLt; omega
    | ⟨1, _⟩ => rfl)
theorem bent66 (i : S100000x1.Idx) : idx_main_v66 (idx_main_v67 i) = ix1 (n := 1) (0 : Fin 1) :=
  funext fun a => Fin.ext (by match a with | ⟨0, _⟩ => rfl)

/-! ## The stages -/

/-- The first layer's output is the dense step of the aggregate and the input features. -/
theorem layer1_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 x1 x2 x3 x4 = dense (val_main_v22 (F := Ideal) x0 x1) x0 x2 (fun j => x3 (ix1 j)) x4 := by
  funext i
  rw [val_main_v31_apply, val_main_v30_apply, val_main_v27_apply, val_main_v24_apply, val_main_v26_apply, val_main_v25_apply,
    val_main_v29_apply, val_main_call0_v0_apply, val_main_call0_cst_apply]
  simp only [val_main_v23_apply, val_main_v28_apply, lrow24, wrow23, bcol25, lrow29, wrow28, Ideal.maximumf_def, Ideal.addf_def, Ideal.ofBits_def]
  rfl

/-- The second layer's output is the dense step of the second aggregate and the first layer's output. -/
theorem layer2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v63 (F := Ideal) x0 x1 x2 x3 x4 x5 x6 x7
      = dense (val_main_v54 (F := Ideal) x0 x1 x2 x3 x4) (val_main_v31 (F := Ideal) x0 x1 x2 x3 x4) x5 (fun j => x6 (ix1 j)) x7 := by
  funext i
  rw [val_main_v63_apply, val_main_v62_apply, val_main_v59_apply, val_main_v56_apply, val_main_v58_apply, val_main_v57_apply,
    val_main_v61_apply, val_main_call1_v0_apply, val_main_call1_cst_apply]
  simp only [val_main_v55_apply, val_main_v60_apply, lrow56, wrow55, bcol57, lrow61, wrow60, Ideal.maximumf_def, Ideal.addf_def, Ideal.ofBits_def]
  rfl

/-- The scores are the head applied to the second layer's output. -/
theorem head_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S1x128, .f32⟩ : BufTy).Contents (Elt Ideal)) (x9 : (⟨S1, .f32⟩ : BufTy).Contents (Elt Ideal)) :
    val_main_v68 (F := Ideal) x0 x1 x2 x3 x4 x5 x6 x7 x8 x9 = score (val_main_v63 (F := Ideal) x0 x1 x2 x3 x4 x5 x6 x7) x8 (x9 (ix1 (0 : Fin 1))) := by
  funext i
  rw [val_main_v68_apply, val_main_v65_apply, val_main_v67_apply, val_main_v66_apply]
  simp only [val_main_v64_apply, lrow65, wrow64, bent66, Ideal.addf_def]
  rfl

/-! ## The two results -/

/-- The reference's second result is the specification's embedding. -/
theorem embedding_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) : val_main_v63 (F := Ideal) x0 x1 x2 x3 x4 x5 x6 x7 = embedding x0 x1 x2 x3 x4 x5 x6 x7 := by
  rw [layer2_eq, agg2_eq, layer1_eq, agg1_eq]
  rfl

/-- The reference's first result is the specification's scores. -/
theorem scores_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S1x128, .f32⟩ : BufTy).Contents (Elt Ideal)) (x9 : (⟨S1, .f32⟩ : BufTy).Contents (Elt Ideal)) : val_main_v68 (F := Ideal) x0 x1 x2 x3 x4 x5 x6 x7 x8 x9 = scores x0 x1 x2 x3 x4 x5 x6 x7 x8 x9 := by
  rw [head_eq, embedding_eq]
  rfl

end Cert.ReferenceIdeal.RefValue

end
-- ==== Proof.lean ====
/-
  Two layers of neighbour-mean aggregation with a dense step each, and a linear head, computed by a tiled kernel
  program and by a plain reference: at exact arithmetic on the extended reals they return the same scores and the
  same embedding.

  Both programs take the neighbour mean of the features with the same host operations. The kernel then runs each
  dense step as a grid of 20 row blocks, multiplying a block by the transposed weight matrices held whole; the
  reference multiplies the whole arrays. Entry (r, j) is on both sides
      max( (Σ_k mean[r,k] · Wl[j,k]) + b[j] + (Σ_k x[r,k] · Wr[j,k]) , 0 ),
  the same sums over the same index in the same grouping, so the two agree with no appeal to the finiteness of the
  inputs; the head's score is (Σ_k h[r,k] · w[0,k]) + b0 on both sides. The kernel's result arrays are read off its
  run's last segment boundary and walked back through the three grids to the arguments; the reference's are its
  straight-line run read stage by stage. The kernel's idealization rewrote nothing, so that claim is trivial; the
  three frames are the programs' runs with the results forgotten.
-/
import proofs.«122160_j52089363366199_1_alg».proof.Defs
import proofs.«122160_j52089363366199_1_alg».proof.Proof.Gen.Kernel
import proofs.«122160_j52089363366199_1_alg».proof.Proof.KernelFrameP
import proofs.«122160_j52089363366199_1_alg».proof.Proof.Gen.KernelIdeal
import proofs.«122160_j52089363366199_1_alg».proof.Proof.KernelIdealFrameP
import proofs.«122160_j52089363366199_1_alg».proof.Proof.Gen.ReferenceIdeal
import proofs.«122160_j52089363366199_1_alg».proof.Proof.Gen.ReferenceIdeal.Run
import proofs.«122160_j52089363366199_1_alg».proof.Proof.Gen.ReferenceIdeal.Read
import proofs.«122160_j52089363366199_1_alg».proof.Proof.Gen.Pre_finite_inputs
import proofs.«122160_j52089363366199_1_alg».proof.Proof.KernelRun
import proofs.«122160_j52089363366199_1_alg».proof.Proof.Fold
import proofs.«122160_j52089363366199_1_alg».proof.Proof.RefValue
import Idealize.ShloMosaic.Adequacy
import Idealize.ShloMosaic.Init

noncomputable section

namespace Cert.Proof

open Idealize.ShloMosaic Idealize.SL.Sem Cert.Sage

theorem frame_kernel : Cert.frame_Kernel := fun m ρ _ => Cert.Kernel.GenP.frame m ρ

theorem frame_kernel_ideal : Cert.frame_KernelIdeal := fun m ρ _ => Cert.KernelIdeal.GenP.frame m ρ

/-- The reference's frame is its run with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- Both idealized programs end with the specification's scores and embedding of the (agreeing) arguments. -/
theorem algebraic : Cert.algebraic_KernelIdeal_ReferenceIdeal := by
  intro m ρ m' ρ' _ hagree
  refine ⟨fun c => scores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => embedding (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.scores_at_end m ρ c),
        (h c).2.1.trans (Cert.KernelIdeal.Fold.embedding_at_end m ρ c), (h c).2.2⟩)
      (Cert.KernelIdeal.Results.run_last_boundary (F := Ideal) m ρ)
  · refine (θ_run Cert.ReferenceIdeal.defs _ _).mono (fun _ h c => ⟨?_, ?_, (h c).2.2⟩)
      (Cert.ReferenceIdeal.Value.run (F := Ideal) m' ρ')
    · obtain ⟨e0, e1, e2, e3, e4, e5, e6, e7, e8, e9⟩ := hagree c
      rw [(h c).1, Cert.ReferenceIdeal.Read.val_main_v68_eq, Cert.ReferenceIdeal.RefValue.scores_eq, e0, e1, e2, e3, e4, e5, e6, e7, e8, e9]
    · obtain ⟨e0, e1, e2, e3, e4, e5, e6, e7, -, -⟩ := hagree c
      rw [(h c).2.1, Cert.ReferenceIdeal.Read.val_main_v63_eq, Cert.ReferenceIdeal.RefValue.embedding_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
